-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S8192x8192 : Shape := ⟨2, ![8192, 8192]⟩
abbrev S256x1024 : Shape := ⟨2, ![256, 1024]⟩
abbrev S256x8192 : Shape := ⟨2, ![256, 8192]⟩
abbrev S2 : Shape := ⟨1, ![2]⟩
abbrev S1 : Shape := ⟨1, ![1]⟩
abbrev S_ : Shape := ⟨0, ![]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x8192, .f32⟩
  | .local _ .vmem, ⟨0, _⟩ => ⟨S256x1024, .f32⟩
  | .local _ .vmem, ⟨1, _⟩ => ⟨S256x1024, .f32⟩
  | .local _ .vmem, ⟨2, _⟩ => ⟨S256x8192, .f32⟩
  | .local _ .vmem, ⟨3, _⟩ => ⟨S256x8192, .f32⟩
  | .local _ .vmem, ⟨4, _⟩ => ⟨S8192x1024, .bf16⟩
  | .local _ .vmem, ⟨5, _⟩ => ⟨S8192x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg0 : BitVec 32 := BitVec.ofNat 32 (i 0).val
  let c16_i32 : BitVec 32 := 16#32
  let v3 : BitVec 32 := Scalar.muli arg0 c16_i32
  let arg1 : BitVec 32 := BitVec.ofNat 32 (i 1).val
  let v4 : BitVec 32 := Scalar.addi v3 arg1
  let c256_i32 : BitVec 32 := 256#32
  let v5 : BitVec 32 := Scalar.muli v4 c256_i32
  v5
def k0_off1 (i : grid0.Coords) : Fin 2 → Nat :=
  let arg0 : BitVec 32 := BitVec.ofNat 32 (i 0).val
  let c16_i32 : BitVec 32 := 16#32
  let v3 : BitVec 32 := Scalar.muli arg0 c16_i32
  let arg1 : BitVec 32 := BitVec.ofNat 32 (i 1).val
  let v4 : BitVec 32 := Scalar.addi v3 arg1
  let c256_i32 : BitVec 32 := 256#32
  let v5 : BitVec 32 := Scalar.muli v4 c256_i32
  let v6 : BitVec 32 := v5
  let v7 : Index := Scalar.indexCast v6
  let c0 : Index := 0#32
  ![v7.toNat, 0]
def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bitsLt_bf16_f32 : FTy.bits .bf16 < FTy.bits .f32
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  h_S256x1024 : 0 < S256x1024.numel
  inb_S8192x1024_S8192x1024_0_0 : ∀ a, (![0, 0] : Fin 2 → Nat) a + S8192x1024.size a ≤ S8192x1024.size a
  h_S8192x1024 : 0 < S8192x1024.numel
  reduces_S256x8192_S256 : S256x8192.Reduces [1] S256
  shapeCasts_S256_S256x1 : S256.ShapeCasts S256x1
  broadcasts_S256x1_S256x8192 : S256x1.Broadcasts S256x8192
  inb_S256x8192_S256x8192_0_0 : ∀ a, (![0, 0] : Fin 2 → Nat) a + S256x8192.size a ≤ S256x8192.size a
  h_S256x8192 : 0 < S256x8192.numel
  inb_S256x1024_S256x1024_0_0 : ∀ a, (![0, 0] : Fin 2 → Nat) a + S256x1024.size a ≤ S256x1024.size a
  dot_S256x1024_S8192x1024_S256x8192_1_1_0_0_n_n_wf : DotDims.WF S256x1024 S8192x1024 S256x8192 [1] [1] [0] [0] [] []
  dot_S256x8192_S8192x1024_S256x1024_1_0_0_1_n_n_wf : DotDims.WF S256x8192 S8192x1024 S256x1024 [1] [0] [0] [1] [] []
  hcc0_scratch2 : 4 + S2.numel ≤ 6
  hrank0 : 0 < grid0.rank
  k0_mult1_dvd : ∀ i : grid0.Coords, 256 ∣ (k0_mult1 i).toNat
  k0_off1_inb : ∀ i : grid0.Coords, ∀ a, (k0_off1 i) a + S256x1024.size a ≤ S8192x1024.size a
  hstage0_0 : ∀ j, (stage0_0 j).IsWhole
  nbuf0_0 : grid0.bufCount reads0_0 false = 2
  hreads0_0 : ∀ i i' : grid0.Coords, (∀ a, reads0_0 a = true → i a = i' a) → cc0_transform_2 i = cc0_transform_2 i'
  hinb0_0 : ∀ (i : grid0.Coords) a, (cc0_transform_2 i a + 1) * S256x1024.size a ≤ S8192x1024.size a
  hwx0_0 : ∀ i : grid0.Coords, EltTy.bits .f32 = 32 ∨ (Rect.block (s := S8192x1024) S256x1024.size (cc0_transform_2 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_3 i = cc0_transform_3 i'
  hinb0_1 : ∀ (i : grid0.Coords) a, (cc0_transform_3 i a + 1) * S256x8192.size a ≤ S8192x8192.size a
  hwx0_1 : ∀ i : grid0.Coords, EltTy.bits .f32 = 32 ∨ (Rect.block (s := S8192x8192) S256x8192.size (cc0_transform_3 i) (hinb0_1 i)).WholeWords (EltTy.packing .f32)

variable [Facts₀]

abbrev cc0_scratch2 : DmaSems sig S2 := SemArray.consecutive 4 S2 hcc0_scratch2
def dot_S256x1024_S8192x1024_S256x8192_1_1_0_0_n_n : DotDims S256x1024 S8192x1024 S256x8192 where
  lhsContracting := [1]
  rhsContracting := [1]
  lhsNonContracting := [0]
  rhsNonContracting := [0]
  lhsBatch := []
  rhsBatch := []
  wf := dot_S256x1024_S8192x1024_S256x8192_1_1_0_0_n_n_wf
def dot_S256x8192_S8192x1024_S256x1024_1_0_0_1_n_n : DotDims S256x8192 S8192x1024 S256x1024 where
  lhsContracting := [1]
  rhsContracting := [0]
  lhsNonContracting := [0]
  rhsNonContracting := [1]
  lhsBatch := []
  rhsBatch := []
  wf := dot_S256x8192_S8192x1024_S256x1024_1_0_0_1_n_n_wf

abbrev win0_0 : Pipeline.Window sig grid0 :=
  Pipeline.Window.ofSpec (Memref.whole main_v2_0) S256x1024.size cc0_transform_2 reads0_0 true false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_1) S256x8192.size cc0_transform_3 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S_ : Shape := ⟨0, ![]⟩
abbrev S8192x8192 : Shape := ⟨2, ![8192, 8192]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x8192, .f32⟩
  | .hbm, ⟨22, _⟩ => ⟨S8192x8192, .f32⟩
  | .hbm, ⟨23, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S8192x1024_S8192x8192_1_1_0_0_n_n_wf : DotDims.WF S8192x1024 S8192x1024 S8192x8192 [1] [1] [0] [0] [] []
  dot_S8192x8192_S8192x1024_S8192x1024_1_0_0_1_n_n_wf : DotDims.WF S8192x8192 S8192x1024 S8192x1024 [1] [0] [0] [1] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.Pieces.lean ====
/-
  What one run of the kernel body leaves behind, as values. The body keeps two resident arrays between grid
  points: K (all key rows) and V (all value rows, which are also the query rows). At the first point of each core
  (case A) it copies both from memory; at every other point (case B) it finds them as the point before left them.
  In both cases it then takes the 256 query rows of its point out of V, forms the block of attention
  probabilities from the tile and K, and the block of outputs from that block and V.
-/
import proofs.«100031_j11802570130233_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The 256 rows of `X` a grid point works on: rows from the point's row offset on, all 1024 columns. -/
abbrev qtile (i : grid0.Coords) (X : Vec F S8192x1024 .bf16) : Vec F S256x1024 .bf16 :=
  View.ld X (Rect.unit (s := S8192x1024) (k0_off1 i) S256x1024.size (k0_off1_inb i))

section Whole
variable {Val : EltTy → Type} [∀ e, Nonempty (Val e)] {S : Shape} {e : EltTy}

/-- One store of a whole array leaves what it stored. -/
theorem canon_whole (w : S.Idx → Val e) : View.canon [(⟨Rect.whole S, w⟩ : View.Piece Val S e)] = w := by
  funext y
  have h := View.canon_cons_emb (Val := Val) (Rect.whole S) w [] y
  rw [Rect.emb_whole_apply] at h
  exact h

/-- One store of a whole array covers it. -/
theorem cover_whole (w : S.Idx → Val e) (y : S.Idx) : ∃ p ∈ [(⟨Rect.whole S, w⟩ : View.Piece Val S e)], y ∈ p.1.set :=
  ⟨_, List.mem_singleton_self _, by show y ∈ (Rect.whole S).set; rw [Rect.set_whole]; exact Finset.mem_univ y⟩

end Whole

variable (c : Dev nD) (i : grid0.Coords) (a4 : Memref sig .tc .vmem S256x1024 .f32) (h4 : a4.IsWhole)
    (a5 : Memref sig .tc .vmem S256x8192 .f32) (h5 : a5.IsWhole) (a6 : Memref sig .tc .vmem S8192x1024 .bf16) (h6 : a6.IsWhole)
    (a7 : Memref sig .tc .vmem S8192x1024 .bf16) (h7 : a7.IsWhole)

/-! ## Case B: the resident arrays are found -/

/-- The probabilities block of a point that finds K = `xs0` and V = `xs1` resident. -/
theorem out_B_1 (hc : ¬cond0_0 i) (xs0 xs1 : Vec F S8192x1024 .bf16) (fh0 : HbBuf0 (F := F) c hbM0_0) (fh1 : HbBuf0 (F := F) c hbM0_1) :
    out0_B_1 c i a4 h4 a5 h5 a6 h6 a7 h7 hc xs0 xs1 fh0 fh1 = k0_pay1 (qtile i xs1) xs0 := by
  unfold out0_B_1
  rw [View.read_writes_eq_canon _ _ _ (cover0_B_1 c i a4 h4 a5 h5 a6 h6 a7 h7 hc xs0 xs1 fh0 fh1)]
  unfold kernelRun0_B
  dsimp only
  rw [View.canon_unit_zero hz]
  simp only [View.readAt_eq_ld, h6.read_unread, h7.read_unread, View.ld_unit_zero (S := S8192x1024) hz]

/-- The outputs block of such a point. -/
theorem out_B_0 (hc : ¬cond0_0 i) (xs0 xs1 : Vec F S8192x1024 .bf16) (fh0 : HbBuf0 (F := F) c hbM0_0) (fh1 : HbBuf0 (F := F) c hbM0_1) :
    out0_B_0 c i a4 h4 a5 h5 a6 h6 a7 h7 hc xs0 xs1 fh0 fh1 = k0_pay2 (qtile i xs1) xs0 xs1 := by
  unfold out0_B_0
  rw [View.read_writes_eq_canon _ _ _ (cover0_B_0 c i a4 h4 a5 h5 a6 h6 a7 h7 hc xs0 xs1 fh0 fh1)]
  unfold kernelRun0_B
  dsimp only
  rw [View.canon_unit_zero hz]
  simp only [View.readAt_eq_ld, h6.read_unread, h7.read_unread, View.ld_unit_zero (S := S8192x1024) hz]

/-! ## Case A: the resident arrays are copied in first -/

/-- After the copy the first resident array holds the first operand left in memory. -/
theorem sout_A_0 (hc : cond0_0 i) (fh0 : HbBuf0 (F := F) c hbM0_0) (fh1 : HbBuf0 (F := F) c hbM0_1) :
    sout0_A_0 c i a4 h4 a5 h5 a6 h6 a7 h7 hc fh0 fh1 = (fh0 : Vec F S8192x1024 .bf16) := by
  unfold sout0_A_0
  rw [View.read_writes_eq_canon _ _ _ (scover0_A_0 c i a4 h4 a5 h5 a6 h6 a7 h7 hc fh0 fh1)]
  unfold kernelRun0_A
  dsimp only
  sl_unfold_words
  rw [canon_whole]
  rfl

/-- After the copy the second resident array holds the second operand left in memory. -/
theorem sout_A_1 (hc : cond0_0 i) (fh0 : HbBuf0 (F := F) c hbM0_0) (fh1 : HbBuf0 (F := F) c hbM0_1) :
    sout0_A_1 c i a4 h4 a5 h5 a6 h6 a7 h7 hc fh0 fh1 = (fh1 : Vec F S8192x1024 .bf16) := by
  unfold sout0_A_1
  rw [View.read_writes_eq_canon _ _ _ (scover0_A_1 c i a4 h4 a5 h5 a6 h6 a7 h7 hc fh0 fh1)]
  unfold kernelRun0_A
  dsimp only
  sl_unfold_words
  rw [canon_whole]
  rfl

/-- The probabilities block of a point that copies K = `fh0` and V = `fh1` in first. -/
theorem out_A_1 (hc : cond0_0 i) (fh0 : HbBuf0 (F := F) c hbM0_0) (fh1 : HbBuf0 (F := F) c hbM0_1) :
    out0_A_1 c i a4 h4 a5 h5 a6 h6 a7 h7 hc fh0 fh1
      = k0_pay1 (qtile i (fh1 : Vec F S8192x1024 .bf16)) (fh0 : Vec F S8192x1024 .bf16) := by
  unfold out0_A_1
  rw [View.read_writes_eq_canon _ _ _ (cover0_A_1 c i a4 h4 a5 h5 a6 h6 a7 h7 hc fh0 fh1)]
  unfold kernelRun0_A
  dsimp only
  sl_unfold_words
  rw [View.canon_unit_zero hz]
  simp only [View.readAt_eq_ld]
  rw [View.read_writes_eq_canon _ _ _ (cover_whole _), View.readCov_eq_canon_ld _ _ _ (cover_whole _), canon_whole,
    canon_whole, View.ld_unit_zero (S := S8192x1024) hz]
  rfl

/-- The outputs block of such a point. -/
theorem out_A_0 (hc : cond0_0 i) (fh0 : HbBuf0 (F := F) c hbM0_0) (fh1 : HbBuf0 (F := F) c hbM0_1) :
    out0_A_0 c i a4 h4 a5 h5 a6 h6 a7 h7 hc fh0 fh1
      = k0_pay2 (qtile i (fh1 : Vec F S8192x1024 .bf16)) (fh0 : Vec F S8192x1024 .bf16) (fh1 : Vec F S8192x1024 .bf16) := by
  unfold out0_A_0
  rw [View.read_writes_eq_canon _ _ _ (cover0_A_0 c i a4 h4 a5 h5 a6 h6 a7 h7 hc fh0 fh1)]
  unfold kernelRun0_A
  dsimp only
  sl_unfold_words
  rw [View.canon_unit_zero hz]
  simp only [View.readAt_eq_ld]
  rw [View.read_writes_eq_canon _ _ _ (cover_whole _), View.readCov_eq_canon_ld _ _ _ (cover_whole _),
    View.readCov_eq_canon_ld _ _ _ (cover_whole _)]
  simp only [canon_whole, View.ld_unit_zero (S := S8192x1024) hz]
  rfl

end Cert.KernelIdeal.Pieces

end
-- ==== Proof.Resident.lean ====
/-
  The resident arrays hold K and V at every grid point, and so every point's two blocks are the same two
  functions of K, V and the point's tile of query rows. K and V are the two argument arrays passed through a
  change of float format before the region is entered.
-/
import proofs.«100031_j11802570130233_2_alg».proof.Proof.Pieces
import Idealize.ShloMosaic.Lib.StableHlo.Run

noncomputable section

open Idealize.ShloMosaic Idealize.ShloMosaic.TcCoe Idealize.SL.Sem

namespace Cert.KernelIdeal.Resident

open Cert.KernelIdeal Cert.KernelIdeal.Gen Cert.KernelIdeal.Pieces

variable {F : FTy → Type} [FloatOps F]
variable (m : (ℓ : Loc nD τ sig) → Buf (Elt F) ℓ)

/-- The key rows as the region finds them. -/
def keys (c : Dev nD) : Vec F S8192x1024 .bf16 := V m c main_v1

/-- The value rows (which are also the query rows) as the region finds them. -/
def values (c : Dev nD) : Vec F S8192x1024 .bf16 := V m c main_v0

/-- The key rows are the second argument array, its float format changed. -/
theorem keys_eq (c : Dev nD) :
    keys m c = truncf .bf16 (m ((c : Thread nD τ).loc main_arg1)) bitsLt_bf16_f32 := by
  unfold keys
  dsimp only [Gen.V, Gen.hostOps0]; after_results

/-- The value rows are the first argument array, its float format changed. -/
theorem values_eq (c : Dev nD) :
    values m c = truncf .bf16 (m ((c : Thread nD τ).loc main_arg0)) bitsLt_bf16_f32 := by
  unfold values
  dsimp only [Gen.V, Gen.hostOps0]; after_results

/-- A first point of a core copies K and V into the resident arrays. -/
theorem resident_A (c : Dev nD) (t : Fin cfg0.N) (h0 : t.val % 16 = 0) :
    (outsAt0 m c t.val t.isLt).2.2.1 = keys m c ∧ (outsAt0 m c t.val t.isLt).2.2.2 = values m c := by
  have e := outsAt0_A m c t h0
  rw [e]
  dsimp only
  rw [sout_A_0, sout_A_1]
  exact ⟨rfl, rfl⟩

/-- After every grid point the two resident arrays hold K and V: a first point of a core copies them in, every
    other point leaves them as the point before did. -/
theorem resident_eq (c : Dev nD) : ∀ (n : ℕ) (h : n < cfg0.N),
    (outsAt0 m c n h).2.2.1 = keys m c ∧ (outsAt0 m c n h).2.2.2 = values m c
  | 0, h => resident_A m c ⟨0, h⟩ rfl
  | n + 1, h => by
    by_cases h0 : (n + 1) % 16 = 0
    · exact resident_A m c ⟨n + 1, h⟩ h0
    · have e := outsAt0_B m c ⟨n + 1, h⟩ h0
      rw [e]
      dsimp only
      unfold sout0_B_0 sout0_B_1
      show (outsAt0 m c n _).2.2.1 = keys m c ∧ (outsAt0 m c n _).2.2.2 = values m c
      exact resident_eq c n (Nat.lt_of_succ_lt h)

/-- The probabilities block every point leaves: the body's first payload of the point's query tile and K. -/
theorem probs_block (c : Dev nD) (t : Fin cfg0.N) :
    (outsAt0 m c t.val t.isLt).2.1 = k0_pay1 (F := F) (qtile (F := F) (grid0.coords t) (values m c)) (keys m c) := by
  by_cases h0 : t.val % 16 = 0
  · have e := outsAt0_A m c t h0
    rw [e]
    dsimp only
    rw [out_A_1]
    rfl
  · have hp := resident_eq m c (t.val - 1) (Nat.lt_of_le_of_lt (Nat.sub_le _ _) t.isLt)
    have e := outsAt0_B m c t h0
    rw [e]
    dsimp only
    rw [out_B_1, hp.1, hp.2]

/-- The outputs block every point leaves: the body's second payload of the point's query tile, K and V. -/
theorem outs_block (c : Dev nD) (t : Fin cfg0.N) :
    (outsAt0 m c t.val t.isLt).1
      = k0_pay2 (F := F) (qtile (F := F) (grid0.coords t) (values m c)) (keys m c) (values m c) := by
  by_cases h0 : t.val % 16 = 0
  · have e := outsAt0_A m c t h0
    rw [e]
    dsimp only
    rw [out_A_0]
    rfl
  · have hp := resident_eq m c (t.val - 1) (Nat.lt_of_le_of_lt (Nat.sub_le _ _) t.isLt)
    have e := outsAt0_B m c t h0
    rw [e]
    dsimp only
    rw [out_B_0, hp.1, hp.2]

end Cert.KernelIdeal.Resident

end
-- ==== Proof.LibMatrixAtIndex.lean ====
/-
  Vector operations of a graph-convolution layer body read at one index, at the exact (extended-real) instance and
  over arbitrary extents: a row sum and a row maximum of a matrix; the column shapes a keep-dimension reduction
  passes through; a matrix product into a zero accumulator for each of the three ways its two operands are
  contracted (rows against columns, rows against rows, columns against columns); the select that puts one where a
  shifted row number meets a column number; a row-wise log-softmax; the literals 1 and -∞.
-/
import Idealize.ShloMosaic.PureOps
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx

/-! ## A reduction along the rows of a matrix -/

section Rows
variable {a b : Nat} {φ : FTy}

/-- The index over row `r` with column `k` inserted is `(r, k)`. -/
theorem lift_row (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- A sum along the rows, at row `r`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A maximum along the rows, at row `r`: the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (Finset.fold max (Ideal.ofBits φ acc) · Finset.univ) (funext fun k => congrArg src (lift_row h r k)))

end Rows

/-! ## Column shapes -/

section Columns
variable {α : Type} {a b : Nat}

/-- A vector cast to a one-column matrix reads, at `(i, u)`, the vector at `i`. -/
theorem shapeCast_col_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast over `b` columns reads, at `(p, c)`, the column at `p`. -/
theorem broadcastTo_col_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A matrix product into a zero accumulator, for each way the two operands are contracted -/

section Dot
variable {sl sr so : Shape} (d : DotDims sl sr so)

/-- On a kept axis of the left operand (no batch axes) the operand index is the result index's coordinate at
    that axis's position among the kept axes. -/
theorem lhsIdx_val_kept (hb : d.lhsBatch = []) {al : Fin sl.rank} (hn : al ∈ d.lhsNonContracting) {p : Nat}
    (hp : d.lhsNonContracting.idxOf al = p) (hpo : p < so.rank) (j : so.Idx) (q : d.contr.Idx) :
    (d.lhsIdx j q al).val = (j ⟨p, hpo⟩).val := by
  have hnb : al ∉ d.lhsBatch := by rw [hb]; exact List.not_mem_nil
  unfold DotDims.lhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hb, hp]; simp)

/-- On a kept axis of the right operand (no batch axes) the operand index is the result index's coordinate at
    that axis's position after the left operand's kept axes. -/
theorem rhsIdx_val_kept (hlb : d.lhsBatch = []) (hb : d.rhsBatch = []) {ar : Fin sr.rank} (hn : ar ∈ d.rhsNonContracting)
    {p : Nat} (hp : d.lhsNonContracting.length + d.rhsNonContracting.idxOf ar = p) (hpo : p < so.rank) (j : so.Idx)
    (q : d.contr.Idx) : (d.rhsIdx j q ar).val = (j ⟨p, hpo⟩).val := by
  have hnb : ar ∉ d.rhsBatch := by rw [hb]; exact List.not_mem_nil
  unfold DotDims.rhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hlb, ← hp]; simp)

end Dot

section Products
variable {m k n : Nat}

/-- Rows of the left operand against columns of the right: `(A·B)(i,c) = Σ_f A(i,f)·B(f,c)`. -/
theorem matmul_rowcol_apply (d : DotDims ⟨2, ![m, k]⟩ ⟨2, ![k, n]⟩ ⟨2, ![m, n]⟩)
    (hlb : d.lhsBatch = []) (hrb : d.rhsBatch = []) (hln : d.lhsNonContracting = [0]) (hrn : d.rhsNonContracting = [1])
    (hlc : d.lhsContracting = [1]) (hrc : d.rhsContracting = [0])
    (hr : d.contr.rank = 1) (hs : d.contr.size ⟨0, by omega⟩ = k) (prec : Option ContractPrecision)
    (A : FVec Ideal ⟨2, ![m, k]⟩ .f32) (B : FVec Ideal ⟨2, ![k, n]⟩ .f32) (i : Fin m) (c : Fin n) :
    matmul d prec A B (constant (F := Ideal) ⟨2, ![m, n]⟩ .f32 0x00000000#32) (ix2 i c)
      = ∑ f : Fin k, A (ix2 i f) * B (ix2 f c) := by
  show FloatOps.matmul d prec A B (constant (F := Ideal) ⟨2, ![m, n]⟩ .f32 0x00000000#32) (ix2 i c) = _
  rw [Ideal.matmul_constant_zero_apply, ← Equiv.sum_comp (contrEquiv1 d k hr hs).symm]
  refine Finset.sum_congr rfl fun f _ => ?_
  have hk := contrEquiv1_symm_val d k hr hs f
  have el : d.lhsIdx (ix2 i c) ((contrEquiv1 d k hr hs).symm f) = ix2 i f := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i c) ((contrEquiv1 d k hr hs).symm f) = ix2 f c := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

/-- Rows of the left operand against rows of the right: `Σ_e A(i,e)·B(j,e)`. -/
theorem matmul_rowrow_apply (d : DotDims ⟨2, ![m, k]⟩ ⟨2, ![n, k]⟩ ⟨2, ![m, n]⟩)
    (hlb : d.lhsBatch = []) (hrb : d.rhsBatch = []) (hln : d.lhsNonContracting = [0]) (hrn : d.rhsNonContracting = [0])
    (hlc : d.lhsContracting = [1]) (hrc : d.rhsContracting = [1])
    (hr : d.contr.rank = 1) (hs : d.contr.size ⟨0, by omega⟩ = k) (prec : Option ContractPrecision)
    (A : FVec Ideal ⟨2, ![m, k]⟩ .f32) (B : FVec Ideal ⟨2, ![n, k]⟩ .f32) (i : Fin m) (j : Fin n) :
    matmul d prec A B (constant (F := Ideal) ⟨2, ![m, n]⟩ .f32 0x00000000#32) (ix2 i j)
      = ∑ e : Fin k, A (ix2 i e) * B (ix2 j e) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun e _ => ?_
  have hk := contrEquiv1_symm_val d k hr hs e
  have el : d.lhsIdx (ix2 i j) ((contrEquiv1 d k hr hs).symm e) = ix2 i e := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i j) ((contrEquiv1 d k hr hs).symm e) = ix2 j e := funext fun ax => Fin.ext (by
    match ax with
    | ⟨0, _⟩ =>
      exact rhsIdx_val_kept d hlb hrb (ar := 0) (by rw [hrn]; exact List.mem_singleton.mpr rfl) (p := 1)
        (by rw [hln, hrn]; rfl) Nat.one_lt_two _ _
    | ⟨1, _⟩ => exact (d.rhsIdx_val_of_single hrc _ _).trans hk)
  rw [el, er]

/-- Columns of the left operand against columns of the right: `Σ_v A(v,i)·B(v,j)`. -/
theorem matmul_colcol_apply (d : DotDims ⟨2, ![k, m]⟩ ⟨2, ![k, n]⟩ ⟨2, ![m, n]⟩)
    (hlb : d.lhsBatch = []) (hrb : d.rhsBatch = []) (hln : d.lhsNonContracting = [1]) (hrn : d.rhsNonContracting = [1])
    (hlc : d.lhsContracting = [0]) (hrc : d.rhsContracting = [0])
    (hr : d.contr.rank = 1) (hs : d.contr.size ⟨0, by omega⟩ = k) (prec : Option ContractPrecision)
    (A : FVec Ideal ⟨2, ![k, m]⟩ .f32) (B : FVec Ideal ⟨2, ![k, n]⟩ .f32) (i : Fin m) (j : Fin n) :
    matmul d prec A B (constant (F := Ideal) ⟨2, ![m, n]⟩ .f32 0x00000000#32) (ix2 i j)
      = ∑ v : Fin k, A (ix2 v i) * B (ix2 v j) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun v _ => ?_
  have hk := contrEquiv1_symm_val d k hr hs v
  have el : d.lhsIdx (ix2 i j) ((contrEquiv1 d k hr hs).symm v) = ix2 v i := funext fun ax => Fin.ext (by
    match ax with
    | ⟨0, _⟩ => exact (d.lhsIdx_val_of_single hlc _ _).trans hk
    | ⟨1, _⟩ =>
      exact lhsIdx_val_kept d hlb (al := 1) (by rw [hln]; exact List.mem_singleton.mpr rfl) (p := 0)
        (by rw [hln]; rfl) Nat.zero_lt_two _ _)
  have er : d.rhsIdx (ix2 i j) ((contrEquiv1 d k hr hs).symm v) = ix2 v j := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

end Products

/-! ## The diagonal test and the float literals -/

section Words

/-- Row `g·256 + r` against column `j`, compared as 32-bit words that do not wrap: the select is the `if`. -/
theorem select_shifted_eq {α : Type} (g r j : Nat) (hrow : g * 256 + r < 2 ^ 32) (hj : j < 2 ^ 32) (x y : α) :
    Scalar.select (IntOp.cmpi .eq (IntOp.addi (Scalar.muli (BitVec.ofNat 32 g) 256#32) (BitVec.ofNat 32 r))
        (BitVec.ofNat 32 j)) x y = if g * 256 + r = j then x else y := by
  have h1 : IntOp.addi (Scalar.muli (BitVec.ofNat 32 g) 256#32) (BitVec.ofNat 32 r) = BitVec.ofNat 32 (g * 256 + r) := by
    show BitVec.ofNat 32 g * BitVec.ofNat 32 256 + BitVec.ofNat 32 r = _
    rw [BitVec.ofNat_add, BitVec.ofNat_mul]
  rw [h1]
  have h2 : IntOp.cmpi .eq (BitVec.ofNat 32 (g * 256 + r)) (BitVec.ofNat 32 j) = (1 : BitVec 1) ↔ g * 256 + r = j := by
    show BitVec.ofBool (BitVec.ofNat 32 (g * 256 + r) == BitVec.ofNat 32 j) = (1 : BitVec 1) ↔ _
    constructor
    · intro h
      have hb : (BitVec.ofNat 32 (g * 256 + r) == BitVec.ofNat 32 j) = true := by
        cases hc : (BitVec.ofNat 32 (g * 256 + r) == BitVec.ofNat 32 j)
        · rw [hc] at h; exact absurd h (by decide)
        · rfl
      have he := congrArg BitVec.toNat (eq_of_beq hb)
      rw [BitVec.toNat_ofNat, BitVec.toNat_ofNat, Nat.mod_eq_of_lt hrow, Nat.mod_eq_of_lt hj] at he
      exact he
    · intro h
      rw [h, beq_self_eq_true]
      rfl
  unfold Scalar.select
  by_cases h : g * 256 + r = j
  · rw [if_pos h, if_pos (h2.mpr h)]
  · rw [if_neg h, if_neg (mt h2.mp h)]

/-- The word `0x3F800000` is the number one. -/
theorem ofBits_one_f32 : Ideal.ofBits .f32 0x3F800000#32 = 1 := IdealRules.sign_bit.ideal_onePat .f32

/-- The word `0xFF800000` is `-∞`. -/
theorem ofBits_negInf_f32 : Ideal.ofBits .f32 0xFF800000#32 = ⊥ := by
  simp [Ideal.ofBits, Ideal.ieee]

end Words

/-! ## One on the shifted diagonal, and a row-wise log-softmax -/

section Diagonal
variable {a b : Nat}

/-- The select that puts one where row `g·256 + r` meets column `j` and keeps `X` elsewhere, read at `(r, j)`. -/
theorem select_diag_apply (g : Nat) (h0 : (⟨2, ![a, b]⟩ : Shape).Iotas .tc 32 [0])
    (h1 : (⟨2, ![a, b]⟩ : Shape).Iotas .tc 32 [1]) (X : FVec Ideal ⟨2, ![a, b]⟩ .f32) (r : Fin a) (j : Fin b)
    (hrow : g * 256 + r.val < 2 ^ 32) (hj : j.val < 2 ^ 32) :
    select (cmpi .eq (addi (broadcast ⟨2, ![a, b]⟩ (Scalar.muli (BitVec.ofNat 32 g) 256#32))
          (iota .tc ⟨2, ![a, b]⟩ 32 [0] h0)) (iota .tc ⟨2, ![a, b]⟩ 32 [1] h1))
        (broadcast ⟨2, ![a, b]⟩ (Scalar.ofBits (F := Ideal) .f32 0x3F800000#32)) X (ix2 r j)
      = if g * 256 + r.val = j.val then (1 : EReal) else X (ix2 r j) := by
  show Scalar.select (IntOp.cmpi .eq (IntOp.addi (Scalar.muli (BitVec.ofNat 32 g) 256#32)
        (iota .tc ⟨2, ![a, b]⟩ 32 [0] h0 (ix2 r j))) (iota .tc ⟨2, ![a, b]⟩ 32 [1] h1 (ix2 r j)))
      (Ideal.ofBits .f32 0x3F800000#32) (X (ix2 r j)) = _
  rw [iota_single_apply, iota_single_apply, ofBits_one_f32]
  exact select_shifted_eq g r.val j.val hrow hj 1 (X (ix2 r j))

/-- The row-wise log-softmax as the layer body spells it — the row maximum kept as a column, subtracted, the
    exponentials summed along the row, the logarithm of the sum kept as a column and subtracted — read at `(r, c)`:
    `(Y(r,c) − M) − log Σ_k exp (Y(r,k) − M)` with `M` the maximum of row `r` from `-∞`. -/
theorem logSoftmax_rows_apply (Y : FVec Ideal ⟨2, ![a, b]⟩ .f32)
    (hR : (⟨2, ![a, b]⟩ : Shape).Reduces [1] ⟨1, ![a]⟩) (hC : (⟨1, ![a]⟩ : Shape).ShapeCasts ⟨2, ![a, 1]⟩)
    (hB : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (c : Fin b)
    (x : Fin b → EReal) (hx : ∀ k, Y (ix2 r k) = x k) :
    subf (subf Y (broadcastTo ⟨2, ![a, b]⟩ (shapeCast ⟨2, ![a, 1]⟩
            (multiReduction .maximumf [1] ⟨1, ![a]⟩ Y 0xFF800000#32 hR hφ hmax) hC) hB))
        (broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB) (ix2 r c)
      = (x c - (Finset.univ : Finset (Fin b)).fold max ⊥ x)
          - Ideal.log (∑ k : Fin b, Ideal.exp (x k - (Finset.univ : Finset (Fin b)).fold max ⊥ x)) := by
  have hx' : (fun k => Y (ix2 r k)) = x := funext hx
  have hM : ∀ k : Fin b, broadcastTo ⟨2, ![a, b]⟩ (shapeCast ⟨2, ![a, 1]⟩
        (multiReduction .maximumf [1] ⟨1, ![a]⟩ Y 0xFF800000#32 hR hφ hmax) hC) hB (ix2 r k)
      = (Finset.univ : Finset (Fin b)).fold max ⊥ x := fun k => by
    rw [broadcastTo_col_apply, shapeCast_col_apply, rowMax_apply, ofBits_negInf_f32, hx']
  show (Y (ix2 r c) - broadcastTo ⟨2, ![a, b]⟩ (shapeCast ⟨2, ![a, 1]⟩
          (multiReduction .maximumf [1] ⟨1, ![a]⟩ Y 0xFF800000#32 hR hφ hmax) hC) hB (ix2 r c))
        - broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB (ix2 r c) = _
  rw [hM c, broadcastTo_col_apply, hx c]
  show _ - Ideal.log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC (ix2 r (0 : Fin 1))) = _
  rw [shapeCast_col_apply, rowSum_apply]
  refine congrArg (fun s => _ - Ideal.log s) (Finset.sum_congr rfl fun k _ => ?_)
  show Ideal.exp (Y (ix2 r k) - broadcastTo ⟨2, ![a, b]⟩ (shapeCast ⟨2, ![a, 1]⟩
          (multiReduction .maximumf [1] ⟨1, ![a]⟩ Y 0xFF800000#32 hR hφ hmax) hC) hB (ix2 r k)) = _
  rw [hM k, hx k]

end Diagonal

end Cert.KernelIdeal.Pay

end
-- ==== Proof.LibSoftmaxRows.lean ====
/-
  The softmax of a finite family on the extended reals, and a row-wise softmax of a matrix read at one index.
  For a family s over Fin n: rowMax s is its maximum from -inf, weight s j = exp (s j - rowMax s), and
  prob s j = weight s j / (sum over k of weight s k). A vector program computes the row-wise softmax of an [a, b]
  matrix as: the maximum along the rows from -inf kept as a column [a, 1] and broadcast back, subtracted; the
  exponentials; their sum along the rows from zero kept as a column and broadcast back; the quotient. At (r, c)
  that is prob of row r at c, for arbitrary extents. Builds on LibMatrixAtIndex.lean of the same directory
  (take both together).
-/
import Idealize.ShloMosaic.PureOps.Ideal
import Idealize.ShloMosaic.Lib.ValueIdx
import proofs.«100031_j11802570130233_2_alg».proof.Proof.LibMatrixAtIndex

noncomputable section

open scoped BigOperators

namespace Cert.Attn

open Idealize.ShloMosaic Idealize.ShloMosaic.ValueIdx Cert.KernelIdeal.Pay

/-! ## The softmax of a finite family -/

/-- The maximum of a finite family, from -inf. -/
def rowMax {n : Nat} (s : Fin n → EReal) : EReal := (Finset.univ : Finset (Fin n)).fold max ⊥ s

/-- The softmax weight of entry j of a row of scores: exp of the score less the row's maximum. -/
def weight {n : Nat} (s : Fin n → EReal) (j : Fin n) : EReal := Ideal.exp (s j - rowMax s)

/-- The softmax probability of entry j of a row of scores. -/
def prob {n : Nat} (s : Fin n → EReal) (j : Fin n) : EReal := Ideal.div (weight s j) (∑ k : Fin n, weight s k)

/-- Taking the maximum with -inf changes nothing. -/
theorem max_bot_left (y : EReal) : max (⊥ : EReal) y = y := max_eq_right bot_le

/-! ## A row-wise softmax read at an index -/

section Rows
variable {a b : Nat}

/-- The row-wise softmax of a matrix as a vector program spells it: maximum along the rows from -inf kept as a
    column, subtracted; exponentials; their sum along the rows from zero kept as a column; the quotient. -/
def softmaxRows (Y : FVec Ideal ⟨2, ![a, b]⟩ .f32)
    (hR : (⟨2, ![a, b]⟩ : Shape).Reduces [1] ⟨1, ![a]⟩) (hC : (⟨1, ![a]⟩ : Shape).ShapeCasts ⟨2, ![a, 1]⟩)
    (hB : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) : FVec Ideal ⟨2, ![a, b]⟩ .f32 :=
  divf (exp (subf Y (broadcastTo ⟨2, ![a, b]⟩ (shapeCast ⟨2, ![a, 1]⟩
        (multiReduction .maximumf [1] ⟨1, ![a]⟩ Y 0xFF800000#32 hR hφ hmax) hC) hB)))
    (broadcastTo ⟨2, ![a, b]⟩ (shapeCast ⟨2, ![a, 1]⟩
        (multiReduction .add [1] ⟨1, ![a]⟩ (exp (subf Y (broadcastTo ⟨2, ![a, b]⟩ (shapeCast ⟨2, ![a, 1]⟩
            (multiReduction .maximumf [1] ⟨1, ![a]⟩ Y 0xFF800000#32 hR hφ hmax) hC) hB)))
          0x00000000#32 hR hφ hadd) hC) hB)

/-- At (r, c) it is the softmax probability of entry c of row r. -/
theorem softmaxRows_apply (Y : FVec Ideal ⟨2, ![a, b]⟩ .f32)
    (hR : (⟨2, ![a, b]⟩ : Shape).Reduces [1] ⟨1, ![a]⟩) (hC : (⟨1, ![a]⟩ : Shape).ShapeCasts ⟨2, ![a, 1]⟩)
    (hB : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (c : Fin b) :
    softmaxRows Y hR hC hB hφ hmax hadd (ix2 r c) = prob (fun k => Y (ix2 r k)) c := by
  have hM : ∀ k : Fin b, broadcastTo ⟨2, ![a, b]⟩ (shapeCast ⟨2, ![a, 1]⟩
        (multiReduction .maximumf [1] ⟨1, ![a]⟩ Y 0xFF800000#32 hR hφ hmax) hC) hB (ix2 r k)
      = rowMax (fun k => Y (ix2 r k)) := fun k => by
    rw [broadcastTo_col_apply, shapeCast_col_apply, rowMax_apply, ofBits_negInf_f32]
    rfl
  have hW : ∀ k : Fin b, exp (subf Y (broadcastTo ⟨2, ![a, b]⟩ (shapeCast ⟨2, ![a, 1]⟩
        (multiReduction .maximumf [1] ⟨1, ![a]⟩ Y 0xFF800000#32 hR hφ hmax) hC) hB)) (ix2 r k)
      = weight (fun k => Y (ix2 r k)) k := fun k => by
    show Ideal.exp (Y (ix2 r k) - broadcastTo ⟨2, ![a, b]⟩ (shapeCast ⟨2, ![a, 1]⟩
        (multiReduction .maximumf [1] ⟨1, ![a]⟩ Y 0xFF800000#32 hR hφ hmax) hC) hB (ix2 r k)) = _
    rw [hM k]
    rfl
  show Ideal.div (exp (subf Y (broadcastTo ⟨2, ![a, b]⟩ (shapeCast ⟨2, ![a, 1]⟩
        (multiReduction .maximumf [1] ⟨1, ![a]⟩ Y 0xFF800000#32 hR hφ hmax) hC) hB)) (ix2 r c))
      (broadcastTo ⟨2, ![a, b]⟩ (shapeCast ⟨2, ![a, 1]⟩
        (multiReduction .add [1] ⟨1, ![a]⟩ (exp (subf Y (broadcastTo ⟨2, ![a, b]⟩ (shapeCast ⟨2, ![a, 1]⟩
            (multiReduction .maximumf [1] ⟨1, ![a]⟩ Y 0xFF800000#32 hR hφ hmax) hC) hB)))
          0x00000000#32 hR hφ hadd) hC) hB (ix2 r c)) = _
  rw [hW c, broadcastTo_col_apply, shapeCast_col_apply, rowSum_apply]
  unfold prob
  exact congrArg (Ideal.div _) (Finset.sum_congr rfl fun k _ => hW k)

end Rows

end Cert.Attn

end
-- ==== Proof.Spec.lean ====
/-
  Scaled dot-product attention with queries and values from one array, stated index by index on the extended reals.
  For arrays x (queries and values, 8192 rows of 1024) and q (keys) and a scale c:
    score i j   = (sum over e of x(i,e) * q(j,e)) * c
    weight i j  = exp (score i j - max over k of score i k)        (the maximum taken from -inf)
    prob i j    = weight i j / (sum over k of weight i k)
    out i e     = sum over j of prob i j * x(j,e)
  Each row of the result depends on one row of x as the query and on all of q and x as keys and values.
-/
import Idealize.ShloMosaic.PureOps.Ideal
import Idealize.ShloMosaic.Lib.ValueIdx
import proofs.«100031_j11802570130233_2_alg».proof.Proof.LibSoftmaxRows

noncomputable section

open scoped BigOperators

namespace Cert.Attn

open Idealize.ShloMosaic Idealize.ShloMosaic.ValueIdx

/-- The scaled score of query row `u` (a row of 1024 numbers) against key row j of q. -/
def score (u : Fin 1024 → EReal) (q : (⟨2, ![8192, 1024]⟩ : Shape).Idx → EReal) (c : EReal) (j : Fin 8192) : EReal :=
  (∑ e : Fin 1024, u e * q (ix2 j e)) * c

/-- Row i of x as a query. -/
def qrow (x : (⟨2, ![8192, 1024]⟩ : Shape).Idx → EReal) (i : Fin 8192) : Fin 1024 → EReal := fun e => x (ix2 i e)

/-- The attention probabilities: entry (i, j) is the softmax over j of the scaled scores of row i. -/
def P (x q : (⟨2, ![8192, 1024]⟩ : Shape).Idx → EReal) (c : EReal) : (⟨2, ![8192, 8192]⟩ : Shape).Idx → EReal :=
  fun ij => prob (score (qrow x (ij 0)) q c) (ij 1)

/-- The attention output: entry (i, e) is the probability-weighted sum of column e of x. -/
def O (x q : (⟨2, ![8192, 1024]⟩ : Shape).Idx → EReal) (c : EReal) : (⟨2, ![8192, 1024]⟩ : Shape).Idx → EReal :=
  fun ie => ∑ j : Fin 8192, prob (score (qrow x (ie 0)) q c) j * x (ix2 j (ie 1))

/-- The probabilities at row i, column j. -/
theorem P_apply (x q : (⟨2, ![8192, 1024]⟩ : Shape).Idx → EReal) (c : EReal) (i j : Fin 8192) :
    P x q c (ix2 i j) = prob (score (qrow x i) q c) j := rfl

/-- The output at row i, column e. -/
theorem O_apply (x q : (⟨2, ![8192, 1024]⟩ : Shape).Idx → EReal) (c : EReal) (i : Fin 8192) (e : Fin 1024) :
    O x q c (ix2 i e) = ∑ j : Fin 8192, prob (score (qrow x i) q c) j * x (ix2 j e) := rfl

end Cert.Attn

end
-- ==== Proof.Payload.lean ====
/-
  The kernel body's two results at one index, on the extended reals. For a tile Q of 256 query rows, all key
  rows K and all value rows V:
    the probabilities block at (r, j) is the softmax over j of the scaled scores of Q's row r against K's rows;
    the outputs block at (r, e) is the sum over j of that probability times V(j, e).
  The softmax is spelled as the body spells it: the row maximum kept as a column and subtracted, the
  exponentials summed along the row, the sum kept as a column, the quotient.
-/
import proofs.«100031_j11802570130233_2_alg».proof.Proof.Gen.KernelIdeal.Skeleton
import proofs.«100031_j11802570130233_2_alg».proof.Proof.Spec
import proofs.«100031_j11802570130233_2_alg».proof.Proof.LibMatrixAtIndex

noncomputable section

open scoped BigOperators

namespace Cert.KernelIdeal.Payload

open Idealize.ShloMosaic Idealize.ShloMosaic.ValueIdx Cert.KernelIdeal Cert.KernelIdeal.Gen Cert.KernelIdeal.Pay Cert.Attn

/-! ## The body's blocks -/

/-- The scale of the scores: the literal 2^-5. -/
abbrev cS : EReal := Ideal.ofBits .f32 0x3D000000#32

/-- The scaled scores of the tile against all key rows. -/
def scores (Q : Vec Ideal S256x1024 .bf16) (K : Vec Ideal S8192x1024 .bf16) : FVec Ideal S256x8192 .f32 :=
  mulf (matmul (φ₁ := .bf16) (φ₂ := .bf16) dot_S256x1024_S8192x1024_S256x8192_1_1_0_0_n_n none Q K
      (constant S256x8192 .f32 0x00000000#32))
    (broadcast S256x8192 (Scalar.ofBits .f32 0x3D000000#32))

/-- At (r, j): the products of Q's row r with K's row j summed over the 1024 columns, scaled. -/
theorem scores_apply (Q : Vec Ideal S256x1024 .bf16) (K : Vec Ideal S8192x1024 .bf16) (r : Fin 256) (j : Fin 8192) :
    scores Q K (ix2 r j) = score (fun e => Q (ix2 r e)) K cS j := by
  show matmul (φ₁ := .bf16) (φ₂ := .bf16) dot_S256x1024_S8192x1024_S256x8192_1_1_0_0_n_n none Q K
      (constant S256x8192 .f32 0x00000000#32) (ix2 r j) * Ideal.ofBits .f32 0x3D000000#32 = _
  refine congrArg (· * Ideal.ofBits .f32 0x3D000000#32) ?_
  exact matmul_rowrow_apply dot_S256x1024_S8192x1024_S256x8192_1_1_0_0_n_n rfl rfl rfl rfl rfl rfl rfl rfl none Q K r j

set_option maxRecDepth 16384 in
/-- The body's first payload is the row-wise softmax of the scaled scores. -/
theorem pay1_eq (Q : Vec Ideal S256x1024 .bf16) (K : Vec Ideal S8192x1024 .bf16) :
    k0_pay1 (F := Ideal) Q K
      = softmaxRows (scores Q K) reduces_S256x8192_S256 shapeCasts_S256_S256x1 broadcasts_S256x1_S256x8192 (.inl rfl) rfl rfl :=
  rfl

/-- The probabilities block at (r, j). -/
theorem pay1_apply (Q : Vec Ideal S256x1024 .bf16) (K : Vec Ideal S8192x1024 .bf16) (r : Fin 256) (j : Fin 8192) :
    k0_pay1 (F := Ideal) Q K (ix2 r j) = prob (score (fun e => Q (ix2 r e)) K cS) j := by
  refine (congrFun (pay1_eq Q K) (ix2 r j)).trans ?_
  refine (softmaxRows_apply (scores Q K) reduces_S256x8192_S256 shapeCasts_S256_S256x1 broadcasts_S256x1_S256x8192
    (.inl rfl) rfl rfl r j).trans ?_
  exact congrArg (fun s => prob s j) (funext fun k => scores_apply Q K r k)

/-- The outputs block at (r, e). -/
theorem pay2_apply (Q : Vec Ideal S256x1024 .bf16) (K V : Vec Ideal S8192x1024 .bf16) (r : Fin 256) (e : Fin 1024) :
    k0_pay2 (F := Ideal) Q K V (ix2 r e) = ∑ j : Fin 8192, prob (score (fun e => Q (ix2 r e)) K cS) j * V (ix2 j e) := by
  show matmul (φ₁ := .bf16) (φ₂ := .bf16) dot_S256x8192_S8192x1024_S256x1024_1_0_0_1_n_n none
      (truncf .bf16 (k0_pay1 (F := Ideal) Q K) bitsLt_bf16_f32) V (constant S256x1024 .f32 0x00000000#32) (ix2 r e) = _
  refine (matmul_rowcol_apply dot_S256x8192_S8192x1024_S256x1024_1_0_0_1_n_n rfl rfl rfl rfl rfl rfl rfl rfl none
    (truncf .bf16 (k0_pay1 (F := Ideal) Q K) bitsLt_bf16_f32) V r e).trans ?_
  refine Finset.sum_congr rfl fun j _ => ?_
  show k0_pay1 (F := Ideal) Q K (ix2 r j) * V (ix2 j e) = _
  rw [pay1_apply]

end Cert.KernelIdeal.Payload

end
-- ==== Proof.Blocks.lean ====
/-
  From blocks to arrays. Grid point t works on rows 256 t .. 256 t + 255: its query tile is those rows of the
  value array, its probabilities block is those rows of the probabilities, its outputs block those rows of the
  outputs. Each block a point writes back is therefore the whole-array specification restricted to the block,
  the 32 blocks tile each result array, and so each result array ends holding the specification.
-/
import proofs.«100031_j11802570130233_2_alg».proof.Proof.Gen.KernelIdeal.Value
import proofs.«100031_j11802570130233_2_alg».proof.Proof.Resident
import proofs.«100031_j11802570130233_2_alg».proof.Proof.Payload

noncomputable section

open scoped BigOperators

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Pieces Cert.KernelIdeal.Resident Cert.KernelIdeal.Payload Cert.Attn

/-! ## One point: its tile and its two blocks, at an index -/

/-- The query tile of a point is the rows of the array from the point's row offset on. -/
theorem qtile_apply (i : grid0.Coords) (x : S8192x1024.Idx → EReal) (r : Fin 256) (e : Fin 1024) (g : Fin 8192)
    (hg : g.val = k0_off1 i 0 + r.val) (hoff : k0_off1 i 1 = 0) :
    qtile (F := Ideal) i x (ix2 r e) = x (ix2 g e) := by
  show x ((Rect.unit (s := S8192x1024) (k0_off1 i) S256x1024.size (k0_off1_inb i)).idx (ix2 r e)) = _
  refine congrArg x (funext fun a => Fin.ext ?_)
  match a with
  | ⟨0, _⟩ => show k0_off1 i 0 + 1 * r.val = g.val; omega
  | ⟨1, _⟩ => show k0_off1 i 1 + 1 * e.val = e.val; omega

/-- The probabilities block of a point, at a block index, is the probabilities at the array index that lies the
    point's row offset further down. -/
theorem pay1_at (i : grid0.Coords) (x q : S8192x1024.Idx → EReal) (y : S256x8192.Idx) (k : S8192x8192.Idx)
    (h0 : (k 0).val = k0_off1 i 0 + (y 0).val) (h1 : (k 1).val = (y 1).val) (hoff : k0_off1 i 1 = 0) :
    k0_pay1 (F := Ideal) (qtile (F := Ideal) i x) q y = P x q Payload.cS k := by
  obtain ⟨r, j, rfl⟩ : ∃ (r : Fin 256) (j : Fin 8192), y = ix2 r j := ⟨y 0, y 1, eq_ix2 y⟩
  obtain ⟨g, j', rfl⟩ : ∃ (g : Fin 8192) (j' : Fin 8192), k = ix2 g j' := ⟨k 0, k 1, eq_ix2 k⟩
  obtain rfl : j' = j := Fin.ext h1
  refine (pay1_apply (qtile (F := Ideal) i x) q r j').trans ?_
  refine Eq.trans ?_ (P_apply x q Payload.cS g j').symm
  refine congrArg (fun s => prob s j') ?_
  exact congrArg (fun u => score u q Payload.cS) (funext fun e => qtile_apply i x r e g h0 hoff)

/-- The outputs block of a point, at a block index, is the outputs at the array index that lies the point's row
    offset further down. -/
theorem pay2_at (i : grid0.Coords) (x q : S8192x1024.Idx → EReal) (y : S256x1024.Idx) (k : S8192x1024.Idx)
    (h0 : (k 0).val = k0_off1 i 0 + (y 0).val) (h1 : (k 1).val = (y 1).val) (hoff : k0_off1 i 1 = 0) :
    k0_pay2 (F := Ideal) (qtile (F := Ideal) i x) q x y = O x q Payload.cS k := by
  obtain ⟨r, e, rfl⟩ : ∃ (r : Fin 256) (e : Fin 1024), y = ix2 r e := ⟨y 0, y 1, eq_ix2 y⟩
  obtain ⟨g, e', rfl⟩ : ∃ (g : Fin 8192) (e' : Fin 1024), k = ix2 g e' := ⟨k 0, k 1, eq_ix2 k⟩
  obtain rfl : e' = e := Fin.ext h1
  refine (pay2_apply (qtile (F := Ideal) i x) q x r e').trans ?_
  refine Eq.trans ?_ (O_apply x q Payload.cS g e').symm
  refine Finset.sum_congr rfl fun j _ => ?_
  refine congrArg (fun s => prob s j * x (ix2 j e')) ?_
  exact congrArg (fun u => score u q Payload.cS) (funext fun e => qtile_apply i x r e g h0 hoff)

/-! ## The grid -/

/-- The printed index maps and row offset, decided over the 32 grid points: point t has block row t of both
    result arrays, block column 0, and row offset 256 t. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ k0_off1 (grid0.coords t) 0 = 256 * t.val ∧ k0_off1 (grid0.coords t) 1 = 0 :=
  (by decide +kernel : ∀ t : Fin grid0.N, _)

/-! ## What each point writes back -/

variable (m : (ℓ : Loc nD τ sig) → Buf (Elt Ideal) ℓ) (ρ : Dev nD → PrngReg)

/-- The first argument (queries and values) as an array of extended reals. -/
abbrev argX (c : Dev nD) : S8192x1024.Idx → EReal := m ((c : Thread nD τ).loc main_arg0)

/-- The second argument (keys) as an array of extended reals. -/
abbrev argQ (c : Dev nD) : S8192x1024.Idx → EReal := m ((c : Thread nD τ).loc main_arg1)

/-- On the extended reals a change of float format is the identity: the value rows are the first argument. -/
theorem values_ideal (c : Dev nD) : (values m c : S8192x1024.Idx → EReal) = argX m c := by
  rw [values_eq]; rfl

/-- And the key rows are the second argument. -/
theorem keys_ideal (c : Dev nD) : (keys m c : S8192x1024.Idx → EReal) = argQ m c := by
  rw [keys_eq]; rfl

/-- What point t writes back to the probabilities array is block t of the specification's probabilities. -/
theorem flushed_probs (c : Dev nD) (t : Fin cfg0.N) :
    (dats m 0 c).flushed 1 t = ((cfg0.win 1).blk t).view.read (Elt Ideal) (P (argX m c) (argQ m c) Payload.cS) := by
  rw [Cert.KernelIdeal.Value.flushed1, probs_block, values_ideal, keys_ideal]
  obtain ⟨e00, e01, e10, e11, o0, o1⟩ := idx_facts t
  funext j
  show k0_pay1 (F := Ideal) (qtile (F := Ideal) (grid0.coords t) (argX m c)) (argQ m c) ((cfg0.win 1).xinj (grid0.coords t) j)
      = P (argX m c) (argQ m c) Payload.cS (((cfg0.win 1).blk t).view.emb j)
  refine pay1_at (grid0.coords t) (argX m c) (argQ m c) _ _ ?_ ?_ o1
  · show win0_1.index t (0 : Fin 2) * 256 + 1 * (j 0).val = k0_off1 (grid0.coords t) 0 + (j 0).val
    rw [e10, o0]; omega
  · show win0_1.index t (1 : Fin 2) * 8192 + 1 * (j 1).val = (j 1).val
    rw [e11]; omega

/-- What point t writes back to the outputs array is block t of the specification's outputs. -/
theorem flushed_outs (c : Dev nD) (t : Fin cfg0.N) :
    (dats m 0 c).flushed 0 t = ((cfg0.win 0).blk t).view.read (Elt Ideal) (O (argX m c) (argQ m c) Payload.cS) := by
  rw [Cert.KernelIdeal.Value.flushed0, outs_block, values_ideal, keys_ideal]
  obtain ⟨e00, e01, e10, e11, o0, o1⟩ := idx_facts t
  funext j
  show k0_pay2 (F := Ideal) (qtile (F := Ideal) (grid0.coords t) (argX m c)) (argQ m c) (argX m c)
        ((cfg0.win 0).xinj (grid0.coords t) j)
      = O (argX m c) (argQ m c) Payload.cS (((cfg0.win 0).blk t).view.emb j)
  refine pay2_at (grid0.coords t) (argX m c) (argQ m c) _ _ ?_ ?_ o1
  · show win0_0.index t (0 : Fin 2) * 256 + 1 * (j 0).val = k0_off1 (grid0.coords t) 0 + (j 0).val
    rw [e00, o0]; omega
  · show win0_0.index t (1 : Fin 2) * 1024 + 1 * (j 1).val = (j 1).val
    rw [e01]; omega

/-! ## The blocks tile the arrays -/

/-- An index of the probabilities array is in point t's block iff each coordinate is in the block's range. -/
theorem mem_blk_probs (t : Fin cfg0.N) (i : S8192x8192.Idx) :
    i ∈ ((cfg0.win 1).blk t).view.set ↔ ∀ a : Fin 2, win0_1.index t a * S256x8192.size a ≤ (i a).val
      ∧ (i a).val < win0_1.index t a * S256x8192.size a + S256x8192.size a := by
  show i ∈ ((View.whole main_v2_1).slice (win0_1.rect t)).set ↔ _
  rw [View.set_slice_whole, Rect.mem_set_unit]
  exact Iff.rfl

/-- An index of the outputs array is in point t's block iff each coordinate is in the block's range. -/
theorem mem_blk_outs (t : Fin cfg0.N) (i : S8192x1024.Idx) :
    i ∈ ((cfg0.win 0).blk t).view.set ↔ ∀ a : Fin 2, win0_0.index t a * S256x1024.size a ≤ (i a).val
      ∧ (i a).val < win0_0.index t a * S256x1024.size a + S256x1024.size a := by
  show i ∈ ((View.whole main_v2_0).slice (win0_0.rect t)).set ↔ _
  rw [View.set_slice_whole, Rect.mem_set_unit]
  exact Iff.rfl

/-- Row r of the probabilities array is in the block of point r / 256. -/
theorem cover_probs (i : S8192x8192.Idx) :
    ∃ t : Fin cfg0.N, (cfg0.win 1).flush t = true ∧ i ∈ ((cfg0.win 1).blk t).view.set := by
  have hN : cfg0.N = 32 := N_0
  have hi0 : (i 0).val < 8192 := idx2_lt0 i
  have hi1 : (i 1).val < 8192 := idx2_lt1 i
  obtain ⟨t, ht⟩ : ∃ t : Fin cfg0.N, t.val = (i 0).val / 256 := ⟨⟨(i 0).val / 256, by rw [hN]; omega⟩, rfl⟩
  obtain ⟨e00, e01, e10, e11, o0, o1⟩ := idx_facts t
  refine ⟨t, flush0_1 t, ?_⟩
  rw [mem_blk_probs]
  intro a
  match a with
  | ⟨0, _⟩ =>
    show win0_1.index t (0 : Fin 2) * 256 ≤ (i 0).val ∧ (i 0).val < win0_1.index t (0 : Fin 2) * 256 + 256
    rw [e10, ht]; omega
  | ⟨1, _⟩ =>
    show win0_1.index t (1 : Fin 2) * 8192 ≤ (i 1).val ∧ (i 1).val < win0_1.index t (1 : Fin 2) * 8192 + 8192
    rw [e11]; omega

/-- Row r of the outputs array is in the block of point r / 256. -/
theorem cover_outs (i : S8192x1024.Idx) :
    ∃ t : Fin cfg0.N, (cfg0.win 0).flush t = true ∧ i ∈ ((cfg0.win 0).blk t).view.set := by
  have hN : cfg0.N = 32 := N_0
  have hi0 : (i 0).val < 8192 := idx2_lt0 i
  have hi1 : (i 1).val < 1024 := idx2_lt1 i
  obtain ⟨t, ht⟩ : ∃ t : Fin cfg0.N, t.val = (i 0).val / 256 := ⟨⟨(i 0).val / 256, by rw [hN]; omega⟩, rfl⟩
  obtain ⟨e00, e01, e10, e11, o0, o1⟩ := idx_facts t
  refine ⟨t, flush0_0 t, ?_⟩
  rw [mem_blk_outs]
  intro a
  match a with
  | ⟨0, _⟩ =>
    show win0_0.index t (0 : Fin 2) * 256 ≤ (i 0).val ∧ (i 0).val < win0_0.index t (0 : Fin 2) * 256 + 256
    rw [e00, ht]; omega
  | ⟨1, _⟩ =>
    show win0_0.index t (1 : Fin 2) * 1024 ≤ (i 1).val ∧ (i 1).val < win0_0.index t (1 : Fin 2) * 1024 + 1024
    rw [e01]; omega

/-! ## The result arrays, and the run -/

/-- The probabilities array ends holding the specification's probabilities of the two arguments. -/
theorem final_probs (c : Dev nD) : (dats m 0 c).arrAt 1 cfg0.N = P (argX m c) (argQ m c) Payload.cS :=
  (dats m 0 c).arrAt_eq_of_cover 1 (P (argX m c) (argQ m c) Payload.cS) (fun t _ => flushed_probs m c t) cover_probs

/-- The outputs array ends holding the specification's outputs of the two arguments. -/
theorem final_outs (c : Dev nD) : (dats m 0 c).arrAt 0 cfg0.N = O (argX m c) (argQ m c) Payload.cS :=
  (dats m 0 c).arrAt_eq_of_cover 0 (O (argX m c) (argQ m c) Payload.cS) (fun t _ => flushed_outs m c t) cover_outs

/-- The kernel's run on the extended reals: both result arrays at the specification, the arguments unchanged. -/
theorem run : θ_run defs (onTc (τ := τ) (main (F := Ideal))) ⟨m, fun _ => 0, ρ⟩ fun r => ∀ c : Dev nD,
      r.2.mem ((c : Thread nD τ).loc main_v2_0) = O (argX m c) (argQ m c) Payload.cS
      ∧ r.2.mem ((c : Thread nD τ).loc main_v2_1) = P (argX m c) (argQ m c) Payload.cS
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_outs m c), (h c).2.1.trans (final_probs m c),
      (h c).2.2.1, (h c).2.2.2⟩)
    (Cert.KernelIdeal.Value.run_blocks m ρ)

end Cert.KernelIdeal.Blocks

end
-- ==== Proof.Scale.lean ====
/-
  The scaling constant of the attention scores. The kernel multiplies the raw scores by the f32 literal 2^-5 = 1/32;
  the reference multiplies them by the host quotient 1 / sqrt 1024. On the extended reals sqrt 1024 = 32 exactly
  (1024 = 32^2), so the quotient is 1/32 and the two factors are one number.
-/
import Idealize.ShloMosaic.PureOps.Ideal

noncomputable section

namespace Cert.AttnScale

open Idealize.ShloMosaic

/-- The pattern of `1024.0` denotes the real 1024. -/
theorem ofBits_1024 : Ideal.ofBits .f32 0x44800000#32 = ((1024 : ℝ) : EReal) := by
  simp [Ideal.ofBits, Ideal.ieee, -EReal.coe_mul]; norm_num

/-- The pattern of `1.0` denotes 1. -/
theorem ofBits_one : Ideal.ofBits .f32 0x3F800000#32 = ((1 : ℝ) : EReal) := by
  simp [Ideal.ofBits, Ideal.ieee, -EReal.coe_mul]; norm_num

/-- The pattern of `0.03125` denotes the real 1/32. -/
theorem ofBits_inv32 : Ideal.ofBits .f32 0x3D000000#32 = ((1 / 32 : ℝ) : EReal) := by
  simp [Ideal.ofBits, Ideal.ieee, -EReal.coe_mul]; norm_num

/-- The square root of 1024 is 32. -/
theorem sqrt_1024 : Real.sqrt 1024 = 32 := by
  rw [show (1024 : ℝ) = 32 ^ 2 by norm_num]
  exact Real.sqrt_sq (by norm_num)

/-- The reference's factor 1 / sqrt 1024, computed on the extended reals, is the kernel's literal 1/32. -/
theorem host_scale_eq :
    Ideal.div (Ideal.ofBits .f32 0x3F800000#32) (Ideal.sqrt (Ideal.ofBits .f32 0x44800000#32))
      = Ideal.ofBits .f32 0x3D000000#32 := by
  rw [ofBits_1024, ofBits_one, ofBits_inv32, Ideal.sqrt_coe, if_neg (by norm_num), sqrt_1024,
    Ideal.div_coe (by norm_num : (32 : ℝ) ≠ 0), ← EReal.coe_mul, one_mul]

end Cert.AttnScale

end
-- ==== Proof.RefSide.lean ====
/-
  The reference computes the specification. Stage by stage, at one index: the host scale 1 / sqrt 1024 is the
  literal 1/32; the scaled scores; the row maximum from -inf (taking the maximum with -inf once more changes
  nothing); the exponentials of the differences; their row sum from zero; the quotient, which is the second
  result; and the product of that with the first argument, which is the first result.
-/
import proofs.«100031_j11802570130233_2_alg».proof.Proof.Gen.ReferenceIdeal.Read
import proofs.«100031_j11802570130233_2_alg».proof.Proof.Spec
import proofs.«100031_j11802570130233_2_alg».proof.Proof.Scale
import proofs.«100031_j11802570130233_2_alg».proof.Proof.LibMatrixAtIndex

noncomputable section

open scoped BigOperators

namespace Cert.ReferenceIdeal.RefValue

open Idealize.ShloMosaic Idealize.ShloMosaic.ValueIdx Cert.ReferenceIdeal Cert.ReferenceIdeal.Gen Cert.ReferenceIdeal.Read Cert.Attn

variable (x0 x1 : (⟨S8192x1024, .f32⟩ : BufTy).Contents (Elt Ideal))

/-- The scale of the scores: the literal 2^-5. -/
abbrev cS : EReal := Ideal.ofBits .f32 0x3D000000#32

/-- The host's scale, broadcast over the scores, is 1/32 everywhere. -/
theorem scale_apply (i : S8192x8192.Idx) : val_main_v3 (F := Ideal) i = cS := by
  rw [val_main_v3_apply, val_main_v1_apply, val_main_cst_0_apply, val_main_v0_apply, val_main_cst_apply]
  exact Cert.AttnScale.host_scale_eq

/-- The scaled scores at (i, j). -/
theorem scores_apply (i j : Fin 8192) :
    val_main_v4 (F := Ideal) x0 x1 (ix2 i j) = score (qrow x0 i) x1 cS j := by
  have el : ∀ k : Fin 1024, lidx_main_v2 (ix2 i j) k = ix2 i k := fun k => funext fun a => by
    match a with
    | ⟨0, _⟩ => rfl
    | ⟨1, _⟩ => rfl
  have er : ∀ k : Fin 1024, ridx_main_v2 (ix2 i j) k = ix2 j k := fun k => funext fun a => by
    match a with
    | ⟨0, _⟩ => rfl
    | ⟨1, _⟩ => rfl
  rw [val_main_v4_apply, val_main_v2_apply, scale_apply]
  show (∑ k : Fin 1024, x0 (lidx_main_v2 (ix2 i j) k) * x1 (ridx_main_v2 (ix2 i j) k)) * cS = _
  simp only [el, er]
  rfl

/-- The host's row maximum at row i: the maximum of the row's scores from -inf. -/
theorem rowmax_apply (i : Fin 8192) :
    val_main_v5 (F := Ideal) x0 x1 (ix1 i) = rowMax (score (qrow x0 i) x1 cS) := by
  have h : S8192x8192.Reduces [1] S8192 := by decide
  unfold val_main_v5
  rw [Host.reduce_eq_fold_single FloatOps.maximumf _ _ reducesTo_S8192x8192_S8192_d1 h h_S_]
  unfold rowMax
  have hb : val_main_cst_1 (F := Ideal) (Shape.Idx.first h_S_) = (⊥ : EReal) := Cert.KernelIdeal.Pay.ofBits_negInf_f32
  have hf : (val_main_v4 (F := Ideal) x0 x1 ∘ h.lift (ix1 i)) = score (qrow x0 i) x1 cS :=
    funext fun k => (congrArg (val_main_v4 (F := Ideal) x0 x1) (Cert.KernelIdeal.Pay.lift_row h i k)).trans
      (scores_apply x0 x1 i k)
  rw [hb, hf]
  rfl

/-- The maximum the reference subtracts, broadcast back over the scores. -/
theorem submax_apply (i j : Fin 8192) :
    val_main_v9 (F := Ideal) x0 x1 (ix2 i j) = rowMax (score (qrow x0 i) x1 cS) := by
  rw [val_main_v9_apply, val_main_v8_apply, val_main_v7_apply, val_main_v6_apply, val_main_cst_2_apply]
  have e : idx_main_v8 (idx_main_v9 (ix2 i j)) = ix1 i := funext fun a => by
    match a with
    | ⟨0, _⟩ => rfl
  rw [e, rowmax_apply]
  show max (Ideal.ofBits .f32 0xFF800000#32) _ = _
  rw [Cert.KernelIdeal.Pay.ofBits_negInf_f32, max_bot_left]

/-- The exponentials at (i, j): the softmax weights. -/
theorem weights_apply (i j : Fin 8192) :
    val_main_v11 (F := Ideal) x0 x1 (ix2 i j) = weight (score (qrow x0 i) x1 cS) j := by
  rw [val_main_v11_apply, val_main_v10_apply, scores_apply, submax_apply]
  rfl

/-- The second result at (i, j): the softmax probability. -/
theorem probs_apply (i j : Fin 8192) :
    val_main_v15 (F := Ideal) x0 x1 (ix2 i j) = prob (score (qrow x0 i) x1 cS) j := by
  rw [val_main_v15_apply, weights_apply, val_main_v14_apply, val_main_v13_apply, val_main_v12_apply, val_main_cst_3_apply]
  unfold prob
  show Ideal.div _ (Ideal.ofBits .f32 0x00000000#32 + _) = _
  rw [Ideal.ofBits_zero_f32, zero_add]
  have ei : ∀ k : Fin 8192, idx_main_v12 (idx_main_v13 (idx_main_v14 (ix2 i j))) k = ix2 i k := fun k => funext fun a => by
    match a with
    | ⟨0, _⟩ => rfl
    | ⟨1, _⟩ => rfl
  refine congrArg (Ideal.div _) (Finset.sum_congr rfl fun k _ => ?_)
  rw [ei k]
  exact weights_apply x0 x1 i k

/-- The second result is the specification's probabilities. -/
theorem probs_eq : val_main_v15 (F := Ideal) x0 x1 = P x0 x1 cS := by
  funext ij
  obtain ⟨i, j, rfl⟩ : ∃ (i : Fin 8192) (j : Fin 8192), ij = ix2 i j := ⟨ij 0, ij 1, eq_ix2 ij⟩
  exact (probs_apply x0 x1 i j).trans (P_apply x0 x1 cS i j).symm

/-- The first result is the specification's outputs. -/
theorem outs_eq : val_main_v16 (F := Ideal) x0 x1 = O x0 x1 cS := by
  funext ie
  obtain ⟨i, e, rfl⟩ : ∃ (i : Fin 8192) (e : Fin 1024), ie = ix2 i e := ⟨ie 0, ie 1, eq_ix2 ie⟩
  have el : ∀ k : Fin 8192, lidx_main_v16 (ix2 i e) k = ix2 i k := fun k => funext fun a => by
    match a with
    | ⟨0, _⟩ => rfl
    | ⟨1, _⟩ => rfl
  have er : ∀ k : Fin 8192, ridx_main_v16 (ix2 i e) k = ix2 k e := fun k => funext fun a => by
    match a with
    | ⟨0, _⟩ => rfl
    | ⟨1, _⟩ => rfl
  refine (val_main_v16_apply x0 x1 (ix2 i e)).trans ?_
  refine Eq.trans ?_ (O_apply x0 x1 cS i e).symm
  refine Finset.sum_congr rfl fun k _ => ?_
  rw [el k, er k, probs_apply]

end Cert.ReferenceIdeal.RefValue

end
-- ==== Proof.lean ====
/-
  Full-row softmax attention with queries and values from one array: the kernel against its jnp reference, on the
  extended reals.

  Both programs compute, for x the first argument (8192 rows of 1024, used as queries and as values) and q the
  second (keys):  score i j = (sum over e of x(i,e) q(j,e)) * c;  prob i j = exp (score i j - max_k score i k)
  / sum_k exp (score i k - max_k score i k);  out i e = sum_j prob i j * x(j,e);  and return (out, prob).
  The kernel's c is the literal 2^-5; the reference's is 1 / sqrt 1024, and sqrt 1024 = 32 exactly, so they are
  one number. A change of float format is the identity on the extended reals, a matrix product into a zero
  accumulator and the host's dot product are the same finite sum, and the reference's extra maximum with -inf
  changes nothing. No step needs the inputs to be finite.

  The kernel works in 32 grid points of 256 query rows each, two cores of 16 points; the first point of each core
  copies all keys and values into arrays that stay resident, and every point reads them there. That they hold the
  keys and values at every point is an induction on the point; each block a point writes back is then the
  specification restricted to the block, and the blocks tile the two result arrays.
-/
import proofs.«100031_j11802570130233_2_alg».proof.Defs
import proofs.«100031_j11802570130233_2_alg».proof.Proof.Gen.Kernel
import proofs.«100031_j11802570130233_2_alg».proof.Proof.Gen.Kernel.Skeleton
import proofs.«100031_j11802570130233_2_alg».proof.Proof.Gen.Kernel.Launch
import proofs.«100031_j11802570130233_2_alg».proof.Proof.Gen.Kernel.Points
import proofs.«100031_j11802570130233_2_alg».proof.Proof.Gen.Kernel.Frame
import proofs.«100031_j11802570130233_2_alg».proof.Proof.Gen.KernelIdeal
import proofs.«100031_j11802570130233_2_alg».proof.Proof.Gen.KernelIdeal.Skeleton
import proofs.«100031_j11802570130233_2_alg».proof.Proof.Gen.KernelIdeal.Launch
import proofs.«100031_j11802570130233_2_alg».proof.Proof.Gen.KernelIdeal.Points
import proofs.«100031_j11802570130233_2_alg».proof.Proof.Gen.KernelIdeal.Frame
import proofs.«100031_j11802570130233_2_alg».proof.Proof.Gen.ReferenceIdeal
import proofs.«100031_j11802570130233_2_alg».proof.Proof.Gen.Pre_finite_inputs
import proofs.«100031_j11802570130233_2_alg».proof.Proof.Gen.KernelIdeal.Value
import proofs.«100031_j11802570130233_2_alg».proof.Proof.Gen.ReferenceIdeal.Run
import proofs.«100031_j11802570130233_2_alg».proof.Proof.Gen.ReferenceIdeal.Read
import proofs.«100031_j11802570130233_2_alg».proof.Proof.Blocks
import proofs.«100031_j11802570130233_2_alg».proof.Proof.RefSide
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- Nothing was rewritten when the kernel was read on the extended reals. -/
theorem preserves : Cert.preserves_Kernel_KernelIdeal := trivial

/-- Both programs end with the outputs and the probabilities of the specification, taken at the kernel's two
    arguments, with which the reference's agree. -/
theorem algebraic : Cert.algebraic_KernelIdeal_ReferenceIdeal := by
  intro m ρ m' ρ' _ hagree
  refine ⟨fun c => Cert.Attn.O (Cert.KernelIdeal.Blocks.argX m c) (Cert.KernelIdeal.Blocks.argQ m c) Cert.KernelIdeal.Payload.cS,
    fun c => Cert.Attn.P (Cert.KernelIdeal.Blocks.argX m c) (Cert.KernelIdeal.Blocks.argQ m c) Cert.KernelIdeal.Payload.cS,
    Cert.KernelIdeal.Blocks.run m ρ, ?_⟩
  refine (θ_run Cert.ReferenceIdeal.defs _ _).mono (fun _ h c => ?_) (Cert.ReferenceIdeal.Value.run (F := Ideal) m' ρ')
  refine ⟨(h c).1.trans ?_, (h c).2.1.trans ?_, (h c).2.2.1, (h c).2.2.2⟩
  · rw [Cert.ReferenceIdeal.Read.val_main_v16_eq, Cert.ReferenceIdeal.RefValue.outs_eq, (hagree c).1, (hagree c).2]
  · rw [Cert.ReferenceIdeal.Read.val_main_v15_eq, Cert.ReferenceIdeal.RefValue.probs_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
